-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x50x512 : Shape := ⟨4, ![32, 16, 50, 512]⟩
abbrev S32x16x50x10 : Shape := ⟨4, ![32, 16, 50, 10]⟩
abbrev S10x512 : Shape := ⟨2, ![10, 512]⟩
abbrev S_ : Shape := ⟨0, ![]⟩

class Facts : Prop where
  bcast_S_S32x16x50x512 : S_.BroadcastsInDim S32x16x50x512 (![] : Fin 0 → Fin S32x16x50x512.rank)
  reducesTo_S32x16x50x512_S_d0_1_2_3 : S32x16x50x512.ReducesTo [0, 1, 2, 3] S_
  h_S_ : 0 < S_.numel
  bcast_S_S32x16x50x10 : S_.BroadcastsInDim S32x16x50x10 (![] : Fin 0 → Fin S32x16x50x10.rank)
  reducesTo_S32x16x50x10_S_d0_1_2_3 : S32x16x50x10.ReducesTo [0, 1, 2, 3] S_
  bcast_S_S10x512 : S_.BroadcastsInDim S10x512 (![] : Fin 0 → Fin S10x512.rank)
  reducesTo_S10x512_S_d0_1 : S10x512.ReducesTo [0, 1] S_

variable [Facts]

def fn {F : FTy → Type} [FloatOps F] (main_arg0 : FVec F S32x16x50x512 .f32) (main_arg1 : FVec F S32x16x50x10 .f32) (main_arg2 : FVec F S10x512 .f32) : IVec S_ 1 :=
  let main_v0 : FVec F S32x16x50x512 .f32 := Host.absf main_arg0
  let main_cst : FVec F S_ .f32 := constant S_ .f32 0x7F800000#32
  let main_v1 : FVec F S32x16x50x512 .f32 := broadcastInDim S32x16x50x512 ![] bcast_S_S32x16x50x512 main_cst
  let main_v2 : IVec S32x16x50x512 1 := cmpf .olt main_v0 main_v1
  let main_c : IVec S_ 1 := constantI S_ 1 1#1
  let main_v3 : IVec S_ 1 := (fun x v => Host.reduce IntOp.andi x v reducesTo_S32x16x50x512_S_d0_1_2_3 h_S_) main_v2 main_c
  let main_v4 : FVec F S32x16x50x10 .f32 := Host.absf main_arg1
  let main_cst_0 : FVec F S_ .f32 := constant S_ .f32 0x7F800000#32
  let main_v5 : FVec F S32x16x50x10 .f32 := broadcastInDim S32x16x50x10 ![] bcast_S_S32x16x50x10 main_cst_0
  let main_v6 : IVec S32x16x50x10 1 := cmpf .olt main_v4 main_v5
  let main_c_1 : IVec S_ 1 := constantI S_ 1 1#1
  let main_v7 : IVec S_ 1 := (fun x v => Host.reduce IntOp.andi x v reducesTo_S32x16x50x10_S_d0_1_2_3 h_S_) main_v6 main_c_1
  let main_v8 : IVec S_ 1 := andi main_v3 main_v7
  let main_v9 : FVec F S10x512 .f32 := Host.absf main_arg2
  let main_cst_2 : FVec F S_ .f32 := constant S_ .f32 0x7F800000#32
  let main_v10 : FVec F S10x512 .f32 := broadcastInDim S10x512 ![] bcast_S_S10x512 main_cst_2
  let main_v11 : IVec S10x512 1 := cmpf .olt main_v9 main_v10
  let main_c_3 : IVec S_ 1 := constantI S_ 1 1#1
  let main_v12 : IVec S_ 1 := (fun x v => Host.reduce IntOp.andi x v reducesTo_S10x512_S_d0_1 h_S_) main_v11 main_c_3
  let main_v13 : IVec S_ 1 := andi main_v8 main_v12
  main_v13
-- ==== Kernel.lean ====
abbrev S32x16x50x512 : Shape := ⟨4, ![32, 16, 50, 512]⟩
abbrev S32x16x50x10 : Shape := ⟨4, ![32, 16, 50, 10]⟩
abbrev S10x512 : Shape := ⟨2, ![10, 512]⟩
abbrev S32x800x512 : Shape := ⟨3, ![32, 800, 512]⟩
abbrev S32x800x10 : Shape := ⟨3, ![32, 800, 10]⟩
abbrev S32x10x800 : Shape := ⟨3, ![32, 10, 800]⟩
abbrev S32x8x512 : Shape := ⟨3, ![32, 8, 512]⟩
abbrev S8x800x512 : Shape := ⟨3, ![8, 800, 512]⟩
abbrev S8x10x800 : Shape := ⟨3, ![8, 10, 800]⟩
abbrev S8x8x512 : Shape := ⟨3, ![8, 8, 512]⟩
abbrev S8x800 : Shape := ⟨2, ![8, 800]⟩
abbrev S8x1x800 : Shape := ⟨3, ![8, 1, 800]⟩
abbrev S8x10x512 : Shape := ⟨3, ![8, 10, 512]⟩
abbrev S8x10 : Shape := ⟨2, ![8, 10]⟩
abbrev S8x10x1 : Shape := ⟨3, ![8, 10, 1]⟩
abbrev S1x10x512 : Shape := ⟨3, ![1, 10, 512]⟩
abbrev S8x8 : Shape := ⟨2, ![8, 8]⟩
abbrev S8x8x1 : Shape := ⟨3, ![8, 8, 1]⟩
abbrev S32x4096 : Shape := ⟨2, ![32, 4096]⟩

abbrev nBuf : Space → Nat
  | .hbm => 8
  | .vmem => 7
  | .smem => 0
  | _ => 0

abbrev bufTy : (tb : Table) → Fin (tcTables nBuf tb) → BufTy
  | .hbm, ⟨0, _⟩ => ⟨S32x16x50x512, .f32⟩
  | .hbm, ⟨1, _⟩ => ⟨S32x16x50x10, .f32⟩
  | .hbm, ⟨2, _⟩ => ⟨S10x512, .f32⟩
  | .hbm, ⟨3, _⟩ => ⟨S32x800x512, .f32⟩
  | .hbm, ⟨4, _⟩ => ⟨S32x800x10, .f32⟩
  | .hbm, ⟨5, _⟩ => ⟨S32x10x800, .f32⟩
  | .hbm, ⟨6, _⟩ => ⟨S32x8x512, .f32⟩
  | .hbm, ⟨7, _⟩ => ⟨S32x4096, .f32⟩
  | .local _ .vmem, ⟨0, _⟩ => ⟨S8x800x512, .f32⟩
  | .local _ .vmem, ⟨1, _⟩ => ⟨S8x800x512, .f32⟩
  | .local _ .vmem, ⟨2, _⟩ => ⟨S8x10x800, .f32⟩
  | .local _ .vmem, ⟨3, _⟩ => ⟨S8x10x800, .f32⟩
  | .local _ .vmem, ⟨4, _⟩ => ⟨S10x512, .f32⟩
  | .local _ .vmem, ⟨5, _⟩ => ⟨S8x8x512, .f32⟩
  | .local _ .vmem, ⟨6, _⟩ => ⟨S8x8x512, .f32⟩
  | _, _ => ⟨S32x16x50x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x800x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x10x800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x16x50x512_S32x800x512 : S32x16x50x512.ShapeCasts S32x800x512
  shapeCasts_S32x16x50x10_S32x800x10 : S32x16x50x10.ShapeCasts S32x800x10
  transposes_S32x800x10_S32x10x800_0_2_1 : S32x800x10.Transposes [0, 2, 1] S32x10x800
  inb_S8x800x512_S8x800x512_0_0_0 : ∀ a, (![0, 0, 0] : Fin 3 → Nat) a + S8x800x512.size a ≤ S8x800x512.size a
  h_S8x800x512 : 0 < S8x800x512.numel
  shapeCasts_S8x800x512_S8x800x512 : S8x800x512.ShapeCasts S8x800x512
  inb_S8x10x800_S8x10x800_0_0_0 : ∀ a, (![0, 0, 0] : Fin 3 → Nat) a + S8x10x800.size a ≤ S8x10x800.size a
  h_S8x10x800 : 0 < S8x10x800.numel
  shapeCasts_S8x10x800_S8x10x800 : S8x10x800.ShapeCasts S8x10x800
  inb_S10x512_S10x512_0_0 : ∀ a, (![0, 0] : Fin 2 → Nat) a + S10x512.size a ≤ S10x512.size a
  h_S10x512 : 0 < S10x512.numel
  reduces_S8x10x800_S8x800 : S8x10x800.Reduces [1] S8x800
  shapeCasts_S8x800_S8x1x800 : S8x800.ShapeCasts S8x1x800
  broadcasts_S8x1x800_S8x10x800 : S8x1x800.Broadcasts S8x10x800
  reduces_S8x10x800_S8x10 : S8x10x800.Reduces [2] S8x10
  shapeCasts_S8x10_S8x10x1 : S8x10.ShapeCasts S8x10x1
  shapeCasts_S10x512_S1x10x512 : S10x512.ShapeCasts S1x10x512
  broadcasts_S8x10x1_S8x10x512 : S8x10x1.Broadcasts S8x10x512
  broadcasts_S1x10x512_S8x10x512 : S1x10x512.Broadcasts S8x10x512
  slices_S8x10x512_o0_0_0_S8x8x512 : S8x10x512.Slices ![0, 0, 0] S8x8x512
  reduces_S8x8x512_S8x8 : S8x8x512.Reduces [2] S8x8
  shapeCasts_S8x8_S8x8x1 : S8x8.ShapeCasts S8x8x1
  broadcasts_S8x8x1_S8x8x512 : S8x8x1.Broadcasts S8x8x512
  inb_S8x8x512_S8x8x512_0_0_0 : ∀ a, (![0, 0, 0] : Fin 3 → Nat) a + S8x8x512.size a ≤ S8x8x512.size a
  h_S8x8x512 : 0 < S8x8x512.numel
  shapeCasts_S32x8x512_S32x4096 : S32x8x512.ShapeCasts S32x4096
  dot_S8x10x800_S8x800x512_S8x10x512_2_1_1_2_0_0_wf : DotDims.WF S8x10x800 S8x800x512 S8x10x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x800x512.size a ≤ S32x800x512.size a
  hwx0_0 : ∀ i : grid0.Coords, EltTy.bits .f32 = 32 ∨ (Rect.block (s := S32x800x512) S8x800x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x10x800.size a ≤ S32x10x800.size a
  hwx0_1 : ∀ i : grid0.Coords, EltTy.bits .f32 = 32 ∨ (Rect.block (s := S32x10x800) S8x10x800.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x512.size a ≤ S10x512.size a
  hwx0_2 : ∀ i : grid0.Coords, EltTy.bits .f32 = 32 ∨ (Rect.block (s := S10x512) S10x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x8x512.size a ≤ S32x8x512.size a
  hwx0_3 : ∀ i : grid0.Coords, EltTy.bits .f32 = 32 ∨ (Rect.block (s := S32x8x512) S8x8x512.size (cc0_transform_3 i) (hinb0_3 i)).WholeWords (EltTy.packing .f32)

variable [Facts₀]

def dot_S8x10x800_S8x800x512_S8x10x512_2_1_1_2_0_0 : DotDims S8x10x800 S8x800x512 S8x10x512 where
  lhsContracting := [2]
  rhsContracting := [1]
  lhsNonContracting := [1]
  rhsNonContracting := [2]
  lhsBatch := [0]
  rhsBatch := [0]
  wf := dot_S8x10x800_S8x800x512_S8x10x512_2_1_1_2_0_0_wf

abbrev win0_0 : Pipeline.Window sig grid0 :=
  Pipeline.Window.ofSpec (Memref.whole main_v0) S8x800x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x10x800.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x16x50x512 : Shape := ⟨4, ![32, 16, 50, 512]⟩
abbrev S32x16x50x10 : Shape := ⟨4, ![32, 16, 50, 10]⟩
abbrev S10x512 : Shape := ⟨2, ![10, 512]⟩
abbrev S32x800x512 : Shape := ⟨3, ![32, 800, 512]⟩
abbrev S32x800x10 : Shape := ⟨3, ![32, 800, 10]⟩
abbrev S_ : Shape := ⟨0, ![]⟩
abbrev S32x800 : Shape := ⟨2, ![32, 800]⟩
abbrev S32x800x1 : Shape := ⟨3, ![32, 800, 1]⟩
abbrev S32x10x512 : Shape := ⟨3, ![32, 10, 512]⟩
abbrev S32x10 : Shape := ⟨2, ![32, 10]⟩
abbrev S32x10x1 : Shape := ⟨3, ![32, 10, 1]⟩
abbrev S1x10x512 : Shape := ⟨3, ![1, 10, 512]⟩
abbrev S32x8x512 : Shape := ⟨3, ![32, 8, 512]⟩
abbrev S32x8 : Shape := ⟨2, ![32, 8]⟩
abbrev S32x8x1 : Shape := ⟨3, ![32, 8, 1]⟩
abbrev S32x4096 : Shape := ⟨2, ![32, 4096]⟩

abbrev nBuf : Space → Nat
  | .hbm => 40
  | .vmem => 0
  | .smem => 0
  | _ => 0

abbrev bufTy : (tb : Table) → Fin (tcTables nBuf tb) → BufTy
  | .hbm, ⟨0, _⟩ => ⟨S32x16x50x512, .f32⟩
  | .hbm, ⟨1, _⟩ => ⟨S32x16x50x10, .f32⟩
  | .hbm, ⟨2, _⟩ => ⟨S10x512, .f32⟩
  | .hbm, ⟨3, _⟩ => ⟨S32x800x512, .f32⟩
  | .hbm, ⟨4, _⟩ => ⟨S32x800x10, .f32⟩
  | .hbm, ⟨5, _⟩ => ⟨S_, .f32⟩
  | .hbm, ⟨6, _⟩ => ⟨S32x800, .f32⟩
  | .hbm, ⟨7, _⟩ => ⟨S_, .f32⟩
  | .hbm, ⟨8, _⟩ => ⟨S32x800, .f32⟩
  | .hbm, ⟨9, _⟩ => ⟨S32x800, .f32⟩
  | .hbm, ⟨10, _⟩ => ⟨S32x800x1, .f32⟩
  | .hbm, ⟨11, _⟩ => ⟨S32x800x10, .f32⟩
  | .hbm, ⟨12, _⟩ => ⟨S32x800x10, .f32⟩
  | .hbm, ⟨13, _⟩ => ⟨S32x800x10, .f32⟩
  | .hbm, ⟨14, _⟩ => ⟨S_, .f32⟩
  | .hbm, ⟨15, _⟩ => ⟨S32x800, .f32⟩
  | .hbm, ⟨16, _⟩ => ⟨S32x800x1, .f32⟩
  | .hbm, ⟨17, _⟩ => ⟨S32x800x10, .f32⟩
  | .hbm, ⟨18, _⟩ => ⟨S32x800x10, .f32⟩
  | .hbm, ⟨19, _⟩ => ⟨S32x10x512, .f32⟩
  | .hbm, ⟨20, _⟩ => ⟨S_, .f32⟩
  | .hbm, ⟨21, _⟩ => ⟨S32x10, .f32⟩
  | .hbm, ⟨22, _⟩ => ⟨S32x10x1, .f32⟩
  | .hbm, ⟨23, _⟩ => ⟨S1x10x512, .f32⟩
  | .hbm, ⟨24, _⟩ => ⟨S32x10x512, .f32⟩
  | .hbm, ⟨25, _⟩ => ⟨S32x10x512, .f32⟩
  | .hbm, ⟨26, _⟩ => ⟨S32x10x512, .f32⟩
  | .hbm, ⟨27, _⟩ => ⟨S32x10x512, .f32⟩
  | .hbm, ⟨28, _⟩ => ⟨S32x8x512, .f32⟩
  | .hbm, ⟨29, _⟩ => ⟨S32x8x512, .f32⟩
  | .hbm, ⟨30, _⟩ => ⟨S_, .f32⟩
  | .hbm, ⟨31, _⟩ => ⟨S32x8, .f32⟩
  | .hbm, ⟨32, _⟩ => ⟨S32x8x1, .f32⟩
  | .hbm, ⟨33, _⟩ => ⟨S_, .f32⟩
  | .hbm, ⟨34, _⟩ => ⟨S32x8x1, .f32⟩
  | .hbm, ⟨35, _⟩ => ⟨S32x8x1, .f32⟩
  | .hbm, ⟨36, _⟩ => ⟨S32x8x1, .f32⟩
  | .hbm, ⟨37, _⟩ => ⟨S32x8x512, .f32⟩
  | .hbm, ⟨38, _⟩ => ⟨S32x8x512, .f32⟩
  | .hbm, ⟨39, _⟩ => ⟨S32x4096, .f32⟩
  | _, _ => ⟨S32x16x50x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  shapeCasts_S32x16x50x512_S32x800x512 : S32x16x50x512.ShapeCasts S32x800x512
  shapeCasts_S32x16x50x10_S32x800x10 : S32x16x50x10.ShapeCasts S32x800x10
  reducesTo_S32x800x10_S32x800_d2 : S32x800x10.ReducesTo [2] S32x800
  h_S_ : 0 < S_.numel
  bcast_S_S32x800 : S_.BroadcastsInDim S32x800 (![] : Fin 0 → Fin S32x800.rank)
  bcast_S32x800_S32x800x1_0_1 : S32x800.BroadcastsInDim S32x800x1 (![0, 1] : Fin 2 → Fin S32x800x1.rank)
  bcast_S32x800x1_S32x800x10_0_1_2 : S32x800x1.BroadcastsInDim S32x800x10 (![0, 1, 2] : Fin 3 → Fin S32x800x10.rank)
  reducesTo_S32x800x10_S32x10_d1 : S32x800x10.ReducesTo [1] S32x10
  bcast_S32x10_S32x10x1_0_1 : S32x10.BroadcastsInDim S32x10x1 (![0, 1] : Fin 2 → Fin S32x10x1.rank)
  bcast_S10x512_S1x10x512_1_2 : S10x512.BroadcastsInDim S1x10x512 (![1, 2] : Fin 2 → Fin S1x10x512.rank)
  bcast_S32x10x1_S32x10x512_0_1_2 : S32x10x1.BroadcastsInDim S32x10x512 (![0, 1, 2] : Fin 3 → Fin S32x10x512.rank)
  bcast_S1x10x512_S32x10x512_0_1_2 : S1x10x512.BroadcastsInDim S32x10x512 (![0, 1, 2] : Fin 3 → Fin S32x10x512.rank)
  slices_S32x10x512_S32x8x512_0_0_0 : S32x10x512.Slices ![0, 0, 0] S32x8x512
  reducesTo_S32x8x512_S32x8_d2 : S32x8x512.ReducesTo [2] S32x8
  bcast_S32x8_S32x8x1_0_1 : S32x8.BroadcastsInDim S32x8x1 (![0, 1] : Fin 2 → Fin S32x8x1.rank)
  bcast_S_S32x8x1 : S_.BroadcastsInDim S32x8x1 (![] : Fin 0 → Fin S32x8x1.rank)
  bcast_S32x8x1_S32x8x512_0_1_2 : S32x8x1.BroadcastsInDim S32x8x512 (![0, 1, 2] : Fin 3 → Fin S32x8x512.rank)
  shapeCasts_S32x8x512_S32x4096 : S32x8x512.ShapeCasts S32x4096
  dot_S32x800x10_S32x800x512_S32x10x512_1_1_2_2_0_0_wf : DotDims.WF S32x800x10 S32x800x512 S32x10x512 [1] [1] [2] [2] [0] [0]

variable [Facts₀]

def dot_S32x800x10_S32x800x512_S32x10x512_1_1_2_2_0_0 : DotDims S32x800x10 S32x800x512 S32x10x512 where
  lhsContracting := [1]
  rhsContracting := [1]
  lhsNonContracting := [2]
  rhsNonContracting := [2]
  lhsBatch := [0]
  rhsBatch := [0]
  wf := dot_S32x800x10_S32x800x512_S32x10x512_1_1_2_2_0_0_wf

class Facts : Prop extends Facts₀ where

variable [Facts]
-- ==== Proof.Spec.lean ====
/-
  The value both programs compute, as one function of the argument arrays.

  For one batch element the inputs are a feature matrix `f : [800, 512]` (positions × channels), a score
  matrix `sc : [800, 10]` (positions × clusters) and the cluster centres `c : [10, 512]`. Each position's
  scores are turned into weights by a softmax over the ten clusters — subtract the row's maximum,
  exponentiate, divide by the row's sum —; cluster `k`'s residual is the weighted sum of the features minus
  the total weight times the centre, `∑ₛ a(s,k)·f(s,d) − (∑ₛ a(s,k))·c(k,d)`; the first eight clusters' residual
  rows are then divided by their Euclidean norm, the squared norm clamped below by a small positive constant.
  Everything is read on the extended reals with the ideal instance's operations, so the definitions below are
  the textbook formulas and no rounding appears.
-/
import Idealize.ShloMosaic.PureOps.Ideal
import Idealize.ShloMosaic.Lib.ValueIdx

noncomputable section

namespace Cert.Vlad

open Idealize.ShloMosaic Idealize.ShloMosaic.ValueIdx

/-- The largest of a position's ten scores: the fold of `max` from `-∞` (the f32 word `0xFF800000`). -/
def rowMax (sc : Fin 800 → Fin 10 → EReal) (s : Fin 800) : EReal :=
  (Finset.univ : Finset (Fin 10)).fold max (Ideal.ofBits .f32 0xFF800000#32) (fun k => sc s k)

/-- The exponential of a score shifted by its row's maximum. -/
def expo (sc : Fin 800 → Fin 10 → EReal) (s : Fin 800) (k : Fin 10) : EReal :=
  Ideal.exp (sc s k - rowMax sc s)

/-- The softmax weight of cluster `k` at position `s`. -/
def assign (sc : Fin 800 → Fin 10 → EReal) (s : Fin 800) (k : Fin 10) : EReal :=
  Ideal.div (expo sc s k) (∑ k' : Fin 10, expo sc s k')

/-- The features summed over the positions with cluster `k`'s weights. -/
def weighted (f : Fin 800 → Fin 512 → EReal) (sc : Fin 800 → Fin 10 → EReal) (k : Fin 10) (d : Fin 512) : EReal :=
  ∑ s : Fin 800, assign sc s k * f s d

/-- Cluster `k`'s total weight over the positions. -/
def mass (sc : Fin 800 → Fin 10 → EReal) (k : Fin 10) : EReal :=
  ∑ s : Fin 800, assign sc s k

/-- Cluster `k`'s residual at channel `d`. -/
def resid (f : Fin 800 → Fin 512 → EReal) (sc : Fin 800 → Fin 10 → EReal) (c : Fin 10 → Fin 512 → EReal)
    (k : Fin 10) (d : Fin 512) : EReal :=
  weighted f sc k d - mass sc k * c k d

/-- One of the first eight clusters as one of the ten. -/
def keep (k : Fin 8) : Fin 10 := ⟨k.val, Nat.lt_of_lt_of_le k.isLt (by decide)⟩

/-- The squared Euclidean norm of a kept cluster's residual row. -/
def energy (f : Fin 800 → Fin 512 → EReal) (sc : Fin 800 → Fin 10 → EReal) (c : Fin 10 → Fin 512 → EReal)
    (k : Fin 8) : EReal :=
  ∑ d : Fin 512, resid f sc c (keep k) d * resid f sc c (keep k) d

/-- The normalised residual: the result for one batch element at cluster `k`, channel `d`. The lower clamp on the
    squared norm is the f32 word `0x2B8CBCCC`, the same word in both programs, so its value is never needed. -/
def vladRow (f : Fin 800 → Fin 512 → EReal) (sc : Fin 800 → Fin 10 → EReal) (c : Fin 10 → Fin 512 → EReal)
    (k : Fin 8) (d : Fin 512) : EReal :=
  Ideal.div (resid f sc c (keep k) d)
    (Ideal.sqrt (max (energy f sc c k) (Ideal.ofBits .f32 0x2B8CBCCC#32)))

/-- The whole result before its last reshape: batch element `b`'s normalised residuals from row `b` of the
    flattened features `f : [32, 800, 512]` and scores `sc : [32, 800, 10]`. -/
def G3 (f : (⟨3, ![32, 800, 512]⟩ : Shape).Idx → EReal) (sc : (⟨3, ![32, 800, 10]⟩ : Shape).Idx → EReal)
    (c : (⟨2, ![10, 512]⟩ : Shape).Idx → EReal) : (⟨3, ![32, 8, 512]⟩ : Shape).Idx → EReal :=
  fun j => vladRow (fun s d => f (ix3 (⟨(j 0).val, (j 0).isLt⟩ : Fin 32) s d))
    (fun s k => sc (ix3 (⟨(j 0).val, (j 0).isLt⟩ : Fin 32) s k)) (fun k d => c (ix2 k d))
    (⟨(j 1).val, (j 1).isLt⟩ : Fin 8) (⟨(j 2).val, (j 2).isLt⟩ : Fin 512)

theorem G3_ix3 (f : (⟨3, ![32, 800, 512]⟩ : Shape).Idx → EReal) (sc : (⟨3, ![32, 800, 10]⟩ : Shape).Idx → EReal)
    (c : (⟨2, ![10, 512]⟩ : Shape).Idx → EReal) (b : Fin 32) (k : Fin 8) (d : Fin 512) :
    G3 f sc c (ix3 b k d)
      = vladRow (fun s d' => f (ix3 b s d')) (fun s k' => sc (ix3 b s k')) (fun k' d' => c (ix2 k' d')) k d := rfl

end Cert.Vlad

end
-- ==== Proof.HostGlue.lean ====
/-
  The host operations around the kernel launch, read as values.

  Before the launch the features are flattened from [32, 16, 50, 512] to [32, 800, 512] (the two spatial axes
  become one axis of 800 positions), the scores from [32, 16, 50, 10] to [32, 800, 10], and the flattened scores
  are transposed to [32, 10, 800] so that the launch reads them cluster-major. After the launch the [32, 8, 512]
  result is flattened to [32, 4096]. None of these moves changes a number: each is the same data read in another
  layout.
-/
import proofs.«122732_j66194035966256_2_alg».proof.Proof.Gen.KernelIdeal.Frame
import Idealize.ShloMosaic.Lib.StableHlo.Run
import Idealize.ShloMosaic.Lib.Pipeline.Value

noncomputable section

open Idealize.ShloMosaic Idealize.ShloMosaic.TcCoe Idealize.SL.Sem
open Idealize.ShloMosaic.Pipeline (Dat)

namespace Cert.KernelIdeal.Glue

open Cert.KernelIdeal Cert.KernelIdeal.Gen

variable {F : FTy → Type} [FloatOps F]
variable (m : (ℓ : Loc nD τ sig) → Buf (Elt F) ℓ)

/-- The flattened features, as the launch finds them. -/
theorem V_main_v0 (c : Dev nD) :
    (V m c main_v0 : S32x800x512.Idx → Elt F .f32)
      = shapeCast S32x800x512 (m ((c : Thread nD τ).loc main_arg0)) shapeCasts_S32x16x50x512_S32x800x512 := by
  show StableHlo.after hostOps0 (fun b => m (c, b)) (Proc.devRef .tc main_v0) = _
  after_results
  rfl

/-- The flattened and transposed scores, as the launch finds them. -/
theorem V_main_v2 (c : Dev nD) :
    (V m c main_v2 : S32x10x800.Idx → Elt F .f32)
      = transpose S32x10x800 [0, 2, 1] (shapeCast S32x800x10 (m ((c : Thread nD τ).loc main_arg1)) shapeCasts_S32x16x50x10_S32x800x10)
          transposes_S32x800x10_S32x10x800_0_2_1 := by
  show StableHlo.after hostOps0 (fun b => m (c, b)) (Proc.devRef .tc main_v2) = _
  after_results
  rfl

/-- The program's result is the launch's output array, flattened. -/
theorem tail_main_v4 (c : Dev nD) :
    (Pipeline.afterTail₀ cfgs (dats m) 0 (V0 m) [hostOps1] c main_v4 : S32x4096.Idx → Elt F .f32)
      = shapeCast S32x4096 ((dats m 0 c).arrAt 3 cfg0.N) shapeCasts_S32x8x512_S32x4096 := by
  unfold Pipeline.afterTail₀
  show StableHlo.after hostOps1 _ (Proc.devRef .tc main_v4) = _
  after_results
  exact congrArg (fun A => shapeCast S32x4096 A shapeCasts_S32x8x512_S32x4096)
    (Pipeline.withArrays_arr spec0 launch0.win.arr_inj c (V0 m c) (fun w => (dats m 0 c).arrAt w cfg0.N) 3)

end Cert.KernelIdeal.Glue

end
-- ==== Proof.Blocks.lean ====
/-
  The launch's windows, read by coordinates.

  The grid has four points; point `t` works on the eight batch elements `8t … 8t + 7`. Its feature block is rows
  `8t … 8t + 7` of the flattened features, its score block the same rows of the transposed scores, its centre
  block the whole centre matrix, and its output block rows `8t … 8t + 7` of the output. The four output blocks
  tile the output's 32 rows, so every output index lies in the block of the point `⌊row / 8⌋`.
-/
import proofs.«122732_j66194035966256_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps over the grid: the three batched windows sit at block `t` of their first axis and at
    block 0 of the others; the centres' window at block 0 of both axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The feature block at point `t`: batch row `b` of the block is batch row `8t + b` of the flattened features. -/
theorem iblk0_apply (c : Dev nD) (t : Fin cfg0.N) (b : Fin 8) (s : Fin 800) (d : Fin 512) (B : Fin 32)
    (hB : B.val = 8 * t.val + b.val) :
    (iblk m c 0 t : Vec F S8x800x512 .f32) (ix3 b s d) = (V m c main_v0 : S32x800x512.Idx → Elt F .f32) (ix3 B s d) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t 0 * 8 + 1 * b.val = B.val; rw [e0, hB]; omega
  | ⟨1, _⟩ => show win0_0.index t 1 * 800 + 1 * s.val = s.val; rw [e1]; omega
  | ⟨2, _⟩ => show win0_0.index t 2 * 512 + 1 * d.val = d.val; rw [e2]; omega

/-- The score block at point `t`, in the transposed layout. -/
theorem iblk1_apply (c : Dev nD) (t : Fin cfg0.N) (b : Fin 8) (k : Fin 10) (s : Fin 800) (B : Fin 32)
    (hB : B.val = 8 * t.val + b.val) :
    (iblk m c 1 t : Vec F S8x10x800 .f32) (ix3 b k s) = (V m c main_v2 : S32x10x800.Idx → Elt F .f32) (ix3 B k s) := by
  obtain ⟨-, -, -, e0, e1, e2, -⟩ := idx_facts t
  unfold iblk
  rw [View.read_apply]
  show V m c main_v2 _ = V m c main_v2 _
  congr 1
  funext a
  apply Fin.ext
  match a with
  | ⟨0, _⟩ => show win0_1.index t 0 * 8 + 1 * b.val = B.val; rw [e0, hB]; omega
  | ⟨1, _⟩ => show win0_1.index t 1 * 10 + 1 * k.val = k.val; rw [e1]; omega
  | ⟨2, _⟩ => show win0_1.index t 2 * 800 + 1 * s.val = s.val; rw [e2]; omega

/-- The centres' block at every point is the whole centre matrix. -/
theorem iblk2_apply (c : Dev nD) (t : Fin cfg0.N) (k : Fin 10) (d : Fin 512) :
    (iblk m c 2 t : Vec F S10x512 .f32) (ix2 k d) = (V m c main_arg2 : S10x512.Idx → Elt F .f32) (ix2 k d) := by
  obtain ⟨-, -, -, -, -, -, e0, e1, -⟩ := idx_facts t
  unfold iblk
  rw [View.read_apply]
  show V m c main_arg2 _ = V m c main_arg2 _
  congr 1
  funext a
  apply Fin.ext
  match a with
  | ⟨0, _⟩ => show win0_2.index t 0 * 10 + 1 * k.val = k.val; rw [e0]; omega
  | ⟨1, _⟩ => show win0_2.index t 1 * 512 + 1 * d.val = d.val; rw [e1]; omega

/-- The output block at point `t` sits at rows `8t … 8t + 7` of the output. -/
theorem oblk_emb (t : Fin cfg0.N) (b : Fin 8) (k : Fin 8) (d : Fin 512) (B : Fin 32) (hB : B.val = 8 * t.val + b.val) :
    ((cfg0.win 3).blk t).view.emb (ix3 b k d) = (ix3 B k d : S32x8x512.Idx) := by
  obtain ⟨-, -, -, -, -, -, -, -, e0, e1, e2⟩ := idx_facts t
  funext a
  apply Fin.ext
  match a with
  | ⟨0, _⟩ => show win0_3.index t 0 * 8 + 1 * b.val = B.val; rw [e0, hB]; omega
  | ⟨1, _⟩ => show win0_3.index t 1 * 8 + 1 * k.val = k.val; rw [e1]; omega
  | ⟨2, _⟩ => show win0_3.index t 2 * 512 + 1 * d.val = d.val; rw [e2]; omega

/-- An output index is in point `t`'s block iff each coordinate is in the block's range on its axis. -/
theorem mem_oblk (t : Fin cfg0.N) (i : S32x8x512.Idx) :
    i ∈ ((cfg0.win 3).blk t).view.set ↔ ∀ a : Fin 3, win0_3.index t a * S8x8x512.size a ≤ (i a).val ∧ (i a).val < win0_3.index t a * S8x8x512.size a + S8x8x512.size a := by
  show i ∈ ((View.whole main_v3).slice (win0_3.rect t)).set ↔ _
  rw [View.set_slice_whole, Rect.mem_set_unit]
  exact Iff.rfl

/-- Every output index is in the block of the point `⌊row / 8⌋`, which is written back. -/
theorem covered (i : S32x8x512.Idx) :
    ∃ t : Fin cfg0.N, (cfg0.win 3).flush t = true ∧ i ∈ ((cfg0.win 3).blk t).view.set := by
  have hN : cfg0.N = 4 := N_0
  have hi0 : (i 0).val < 32 := (i 0).isLt
  have hi1 : (i 1).val < 8 := (i 1).isLt
  have hi2 : (i 2).val < 512 := (i 2).isLt
  let t : Fin cfg0.N := ⟨(i 0).val / 8, by rw [hN]; omega⟩
  have ht : t.val = (i 0).val / 8 := rfl
  obtain ⟨-, -, -, -, -, -, -, -, e0, e1, e2⟩ := idx_facts t
  refine ⟨t, flush0_3 t, ?_⟩
  rw [mem_oblk]
  intro a
  match a with
  | ⟨0, _⟩ => show win0_3.index t (0 : Fin 3) * 8 ≤ (i 0).val ∧ (i 0).val < win0_3.index t (0 : Fin 3) * 8 + 8; rw [e0, ht]; omega
  | ⟨1, _⟩ => show win0_3.index t (1 : Fin 3) * 8 ≤ (i 1).val ∧ (i 1).val < win0_3.index t (1 : Fin 3) * 8 + 8; rw [e1]; omega
  | ⟨2, _⟩ => show win0_3.index t (2 : Fin 3) * 512 ≤ (i 2).val ∧ (i 2).val < win0_3.index t (2 : Fin 3) * 512 + 512; rw [e2]; omega

end Cert.KernelIdeal.Blocks

end
-- ==== Proof.LibKeepdims3.lean ====
/-
  Keepdims forms of rank 3 read at an index given by coordinates, and the one-axis reductions of a rank-3
  vector read at the ideal values.

  A reduction that keeps the reduced axis as a unit axis prints as three operations: the reduction itself, a
  shape cast that puts the unit axis back, and a broadcast of the unit axis over the original extent. Read at
  an index `(i, k, j)` the cast and the broadcast only forget the coordinate on the unit axis; the reduction is
  the sum (or the fold of `max`) over that axis's coordinate with the other two held. Each lemma below says this
  for one operation, with the extents `a`, `b`, `c` arbitrary and every index written by its coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Keepdims3

open Idealize.ShloMosaic Idealize.ShloMosaic.ValueIdx

variable {α : Type}

/-! ## A unit axis put back by a shape cast -/

/-- An `[a, c]` array cast to `[a, 1, c]` reads, at `(i, u, j)`, the operand at `(i, j)`: both have row-major
    position `i * c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`: both have row-major
    position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast over an extent -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ =>
    exact (if_pos rfl).symm
  | ⟨2, _⟩ =>
    show j.val = if c = 1 then 0 else j.val
    split
    · have := j.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    exact (if_pos rfl).symm

/-- A `[1, b, c]` array broadcast to `[a, b, c]` reads, at `(k, i, j)`, the operand's one matrix at `(i, j)`. -/
theorem broadcastTo_1bc_abc_apply {a b c : ℕ} (v : (⟨3, ![1, b, c]⟩ : Shape).Idx → α)
    (h : (⟨3, ![1, b, c]⟩ : Shape).Broadcasts ⟨3, ![a, b, c]⟩) (k : Fin a) (i : Fin b) (j : Fin c) :
    broadcastTo ⟨3, ![a, b, c]⟩ v h (ix3 k i j) = v (ix3 (0 : Fin 1) i j) := by
  refine broadcastTo_apply v h (ix3 k i j) (ix3 (0 : Fin 1) i j) fun ax => ?_
  match ax with
  | ⟨0, _⟩ =>
    exact (if_pos rfl).symm
  | ⟨1, _⟩ =>
    show i.val = if b = 1 then 0 else i.val
    split
    · have := i.isLt; omega
    · rfl
  | ⟨2, _⟩ =>
    show j.val = if c = 1 then 0 else j.val
    split
    · have := j.isLt; omega
    · rfl

/-! ## The index a one-axis reduction of a rank-3 vector reads -/

/-- Reducing the middle axis: the source index over result index `(i, j)` with middle coordinate `k` is `(i, k, j)`. -/
theorem lift_axis1 {a b c : ℕ} (h : (⟨3, ![a, b, c]⟩ : Shape).Reduces [1] (⟨2, ![a, c]⟩ : Shape)) (i : Fin a) (j : Fin c)
    (k : Fin ((⟨3, ![a, b, c]⟩ : Shape).size 1)) : h.lift (ix2 i j) k = ix3 i (⟨k.val, k.isLt⟩ : Fin b) j := by
  funext e; apply Fin.ext
  fin_cases e <;> rfl

/-- Reducing the last axis: the source index over result index `(i, j)` with last coordinate `k` is `(i, j, k)`. -/
theorem lift_axis2 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext e; apply Fin.ext
  fin_cases e <;> rfl

/-! ## One-axis reductions of a rank-3 vector at the ideal values -/

/-- The sum over the middle axis, read at `(i, j)`, is `∑ k, src (i, k, j)`. -/
theorem multiReduction_add_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (i : Fin a) (j : Fin c) :
    multiReduction .add [1] ⟨2, ![a, c]⟩ src acc h hφ hacc (ix2 i j) = ∑ k : Fin b, src (ix3 i k j) :=
  (Ideal.multiReduction_add_single src acc h hφ hacc (ix2 i j)).trans
    (Finset.sum_congr rfl fun k _ => congrArg src (lift_axis1 h i j k))

/-- The sum over the last axis, read at `(i, j)`, is `∑ k, src (i, j, k)`. -/
theorem multiReduction_add_axis2_apply {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_axis2 h i j k))

/-- The maximum over the middle axis, read at `(i, j)`, is the fold of `max` from the accumulator's value over
    `src (i, k, j)`. -/
theorem multiReduction_maximumf_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.maximumf.neutral φ hφ) (i : Fin a) (j : Fin c) :
    multiReduction .maximumf [1] ⟨2, ![a, c]⟩ src acc h hφ hacc (ix2 i j)
      = (Finset.univ : Finset (Fin b)).fold max (Ideal.ofBits φ acc) (fun k => src (ix3 i k j)) :=
  (Ideal.multiReduction_maximumf_single src acc h hφ hacc (ix2 i j)).trans
    (congrArg (fun f => (Finset.univ : Finset (Fin b)).fold max (Ideal.ofBits φ acc) f)
      (funext fun k => congrArg src (lift_axis1 h i j k)))

end Cert.Keepdims3

end
-- ==== Proof.KernelReduce.lean ====
/-
  The body's reductions and its matrix product, read at an index on the extended reals.

  A block holds eight batch elements. The scores `[8, 10, 800]` are reduced over their ten clusters (a maximum from
  `-∞`, and a sum) and over their 800 positions (a sum); the squared residuals `[8, 8, 512]` are summed over their
  512 channels; the matrix product contracts the 800 positions of the weights `[8, 10, 800]` against the features
  `[8, 800, 512]`, batch element by batch element, into a zero accumulator. Each is the plain maximum or sum over
  the reduced axis's coordinates.
-/
import proofs.«122732_j66194035966256_2_alg».proof.Proof.Gen.KernelIdeal.Skeleton
import proofs.«122732_j66194035966256_2_alg».proof.Proof.Spec
import Idealize.ShloMosaic.Lib.ValueIdx
import Idealize.ShloMosaic.Lib.Pipeline.Value
import Idealize.ShloMosaic.PureOps.Ideal.Laws

noncomputable section

namespace Cert.KernelIdeal.Reduce

open Idealize.ShloMosaic Idealize.ShloMosaic.ValueIdx Cert.KernelIdeal Cert.KernelIdeal.Gen

/-- The largest score of a position over the ten clusters. -/
theorem max_clusters (v : FVec Ideal S8x10x800 .f32) (b : Fin 8) (s : Fin 800) :
    multiReduction .maximumf [1] S8x800 v 0xFF800000#32 reduces_S8x10x800_S8x800 (.inl rfl) rfl (ix2 b s)
      = (Finset.univ : Finset (Fin 10)).fold max (Ideal.ofBits .f32 0xFF800000#32) (fun k => v (ix3 b k s)) := by
  refine (Ideal.multiReduction_maximumf_single v 0xFF800000#32 reduces_S8x10x800_S8x800 (.inl rfl) rfl (ix2 b s)).trans ?_
  have hf : (v ∘ (reduces_S8x10x800_S8x800).lift (ix2 b s)) = fun k : Fin 10 => v (ix3 b k s) :=
    funext fun k => congrArg v (funext fun a => Fin.ext (by match a with | ⟨0, _⟩ => rfl | ⟨1, _⟩ => rfl | ⟨2, _⟩ => rfl))
  exact congrArg (fun f => Finset.fold max (Ideal.ofBits .f32 0xFF800000#32) f (Finset.univ : Finset (Fin 10))) hf

/-- The sum over the ten clusters at a position. -/
theorem sum_clusters (v : FVec Ideal S8x10x800 .f32) (b : Fin 8) (s : Fin 800) :
    multiReduction .add [1] S8x800 v 0x00000000#32 reduces_S8x10x800_S8x800 (.inl rfl) rfl (ix2 b s)
      = ∑ k : Fin 10, v (ix3 b k s) := by
  refine (Ideal.multiReduction_add_single v 0x00000000#32 reduces_S8x10x800_S8x800 (.inl rfl) rfl (ix2 b s)).trans ?_
  refine Finset.sum_congr rfl fun k _ => ?_
  exact congrArg v (funext fun a => Fin.ext (by match a with | ⟨0, _⟩ => rfl | ⟨1, _⟩ => rfl | ⟨2, _⟩ => rfl))

/-- The sum over the 800 positions for a cluster. -/
theorem sum_positions (v : FVec Ideal S8x10x800 .f32) (b : Fin 8) (k : Fin 10) :
    multiReduction .add [2] S8x10 v 0x00000000#32 reduces_S8x10x800_S8x10 (.inl rfl) rfl (ix2 b k)
      = ∑ s : Fin 800, v (ix3 b k s) := by
  refine (Ideal.multiReduction_add_single v 0x00000000#32 reduces_S8x10x800_S8x10 (.inl rfl) rfl (ix2 b k)).trans ?_
  refine Finset.sum_congr rfl fun s _ => ?_
  exact congrArg v (funext fun a => Fin.ext (by match a with | ⟨0, _⟩ => rfl | ⟨1, _⟩ => rfl | ⟨2, _⟩ => rfl))

/-- The sum over the 512 channels of a kept cluster's row. -/
theorem sum_channels (v : FVec Ideal S8x8x512 .f32) (b : Fin 8) (k : Fin 8) :
    multiReduction .add [2] S8x8 v 0x00000000#32 reduces_S8x8x512_S8x8 (.inl rfl) rfl (ix2 b k)
      = ∑ d : Fin 512, v (ix3 b k d) := by
  refine (Ideal.multiReduction_add_single v 0x00000000#32 reduces_S8x8x512_S8x8 (.inl rfl) rfl (ix2 b k)).trans ?_
  refine Finset.sum_congr rfl fun d _ => ?_
  exact congrArg v (funext fun a => Fin.ext (by match a with | ⟨0, _⟩ => rfl | ⟨1, _⟩ => rfl | ⟨2, _⟩ => rfl))

/-- Where the product's operand indices come from: the batch coordinate and the kept coordinate from the output
    index, the contracted coordinate from the contraction index. -/
theorem lhs_0 (i : S8x10x512.Idx) (q : dot_S8x10x800_S8x800x512_S8x10x512_2_1_1_2_0_0.contr.Idx) :
    (dot_S8x10x800_S8x800x512_S8x10x512_2_1_1_2_0_0.lhsIdx i q 0).val = (i 0).val := by
  unfold DotDims.lhsIdx
  rw [dif_pos (show (0 : Fin S8x10x800.rank) ∈ dot_S8x10x800_S8x800x512_S8x10x512_2_1_1_2_0_0.lhsBatch by decide)]
  rfl
theorem lhs_1 (i : S8x10x512.Idx) (q : dot_S8x10x800_S8x800x512_S8x10x512_2_1_1_2_0_0.contr.Idx) :
    (dot_S8x10x800_S8x800x512_S8x10x512_2_1_1_2_0_0.lhsIdx i q 1).val = (i 1).val := by
  unfold DotDims.lhsIdx
  rw [dif_neg (show ¬(1 : Fin S8x10x800.rank) ∈ dot_S8x10x800_S8x800x512_S8x10x512_2_1_1_2_0_0.lhsBatch by decide), dif_pos (show (1 : Fin S8x10x800.rank) ∈ dot_S8x10x800_S8x800x512_S8x10x512_2_1_1_2_0_0.lhsNonContracting by decide)]
  rfl
theorem lhs_2 (i : S8x10x512.Idx) (q : dot_S8x10x800_S8x800x512_S8x10x512_2_1_1_2_0_0.contr.Idx) :
    (dot_S8x10x800_S8x800x512_S8x10x512_2_1_1_2_0_0.lhsIdx i q 2).val = (q ⟨0, by decide⟩).val :=
  dot_S8x10x800_S8x800x512_S8x10x512_2_1_1_2_0_0.lhsIdx_val_of_single rfl i q
theorem rhs_0 (i : S8x10x512.Idx) (q : dot_S8x10x800_S8x800x512_S8x10x512_2_1_1_2_0_0.contr.Idx) :
    (dot_S8x10x800_S8x800x512_S8x10x512_2_1_1_2_0_0.rhsIdx i q 0).val = (i 0).val := by
  unfold DotDims.rhsIdx
  rw [dif_pos (show (0 : Fin S8x800x512.rank) ∈ dot_S8x10x800_S8x800x512_S8x10x512_2_1_1_2_0_0.rhsBatch by decide)]
  rfl
theorem rhs_1 (i : S8x10x512.Idx) (q : dot_S8x10x800_S8x800x512_S8x10x512_2_1_1_2_0_0.contr.Idx) :
    (dot_S8x10x800_S8x800x512_S8x10x512_2_1_1_2_0_0.rhsIdx i q 1).val = (q ⟨0, by decide⟩).val :=
  dot_S8x10x800_S8x800x512_S8x10x512_2_1_1_2_0_0.rhsIdx_val_of_single rfl i q
theorem rhs_2 (i : S8x10x512.Idx) (q : dot_S8x10x800_S8x800x512_S8x10x512_2_1_1_2_0_0.contr.Idx) :
    (dot_S8x10x800_S8x800x512_S8x10x512_2_1_1_2_0_0.rhsIdx i q 2).val = (i 2).val := by
  unfold DotDims.rhsIdx
  rw [dif_neg (show ¬(2 : Fin S8x800x512.rank) ∈ dot_S8x10x800_S8x800x512_S8x10x512_2_1_1_2_0_0.rhsBatch by decide), dif_pos (show (2 : Fin S8x800x512.rank) ∈ dot_S8x10x800_S8x800x512_S8x10x512_2_1_1_2_0_0.rhsNonContracting by decide)]
  rfl

/-- The batched product of the weights and the features at batch element `b`, cluster `k`, channel `d`: the sum over
    the 800 positions. -/
theorem matmul_at (l : FVec Ideal S8x10x800 .f32) (r : FVec Ideal S8x800x512 .f32) (b : Fin 8) (k : Fin 10) (d : Fin 512) :
    matmul dot_S8x10x800_S8x800x512_S8x10x512_2_1_1_2_0_0 none l r (constant S8x10x512 .f32 0x00000000#32) (ix3 b k d)
      = ∑ s : Fin 800, l (ix3 b k s) * r (ix3 b s d) := by
  simp only [matmul]
  rw [Ideal.matmul_constant_zero_apply, ← Equiv.sum_comp (contrEquiv1 dot_S8x10x800_S8x800x512_S8x10x512_2_1_1_2_0_0 800 rfl rfl).symm]
  refine Finset.sum_congr rfl fun s _ => ?_
  have hk := contrEquiv1_symm_val dot_S8x10x800_S8x800x512_S8x10x512_2_1_1_2_0_0 800 rfl rfl s
  have el : dot_S8x10x800_S8x800x512_S8x10x512_2_1_1_2_0_0.lhsIdx (ix3 b k d) ((contrEquiv1 dot_S8x10x800_S8x800x512_S8x10x512_2_1_1_2_0_0 800 rfl rfl).symm s) = ix3 b k s := funext fun a => Fin.ext (by
    match a with
    | ⟨0, _⟩ => exact lhs_0 _ _
    | ⟨1, _⟩ => exact lhs_1 _ _
    | ⟨2, _⟩ => exact (lhs_2 _ _).trans hk)
  have er : dot_S8x10x800_S8x800x512_S8x10x512_2_1_1_2_0_0.rhsIdx (ix3 b k d) ((contrEquiv1 dot_S8x10x800_S8x800x512_S8x10x512_2_1_1_2_0_0 800 rfl rfl).symm s) = ix3 b s d := funext fun a => Fin.ext (by
    match a with
    | ⟨0, _⟩ => exact rhs_0 _ _
    | ⟨1, _⟩ => exact (rhs_1 _ _).trans hk
    | ⟨2, _⟩ => exact rhs_2 _ _)
  rw [el, er]

/-- Keeping the first eight of the ten clusters. -/
theorem slice_at (v : FVec Ideal S8x10x512 .f32) (b : Fin 8) (k : Fin 8) (d : Fin 512) :
    extractStridedSlice S8x8x512 ![0, 0, 0] v slices_S8x10x512_o0_0_0_S8x8x512 (ix3 b k d) = v (ix3 b (Cert.Vlad.keep k) d) :=
  extractStridedSlice_apply ![0, 0, 0] v slices_S8x10x512_o0_0_0_S8x8x512 (ix3 b k d) (ix3 b (Cert.Vlad.keep k) d) (fun a => match a with
    | ⟨0, _⟩ => by show b.val = 0 + b.val; omega
    | ⟨1, _⟩ => by show k.val = 0 + k.val; omega
    | ⟨2, _⟩ => by show d.val = 0 + d.val; omega)

end Cert.KernelIdeal.Reduce

end
-- ==== Proof.KernelPayload.lean ====
/-
  The kernel body's one stored value, read at an index.

  For a block of eight batch elements the body loads the features `x0 : [8, 800, 512]` (batch × position × channel),
  the scores `x1 : [8, 10, 800]` (batch × cluster × position: cluster-major, the transpose of the specification's
  positions × clusters) and the centres `x2 : [10, 512]`, and stores one vector of shape `[8, 8, 512]`. This module shows
  that the stored vector at `(b, k, d)` is the specification's normalised residual `Cert.Vlad.vladRow` of batch element
  `b`'s features and scores and the centres, at kept cluster `k` and channel `d`.

  The argument follows the body. A softmax over the clusters at each position — the maximum, the shifted exponentials,
  their sum, the quotient — gives the weights; each reduction keeps its axis as a unit axis and broadcasts it back, which at
  an index only forgets that axis's coordinate. The contraction over the positions gives the weighted feature sums, the sum
  of the weights over the positions each cluster's mass, and their combination with the centres the residuals; the first
  eight clusters' rows are kept, their squared norms summed over the channels, clamped below, and the rows divided by the
  square root. Every pointwise operation at the ideal values is the extended reals' own, by definition, so once the
  reductions, the contraction, the slice and the unit-axis casts and broadcasts are read at an index the two sides agree
  term by term.
-/
import proofs.«122732_j66194035966256_2_alg».proof.Proof.Gen.KernelIdeal.Skeleton
import proofs.«122732_j66194035966256_2_alg».proof.Proof.Spec
import proofs.«122732_j66194035966256_2_alg».proof.Proof.LibKeepdims3
import proofs.«122732_j66194035966256_2_alg».proof.Proof.KernelReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-! ## The body's intermediate vectors

The stored value is a chain of thirty operations on the three loaded blocks. The steps that are not pointwise
cut it into the vectors below, each a function of the blocks; `k0_pay1_eq` says the chain is their composition. -/

/-- Each position's largest score over the clusters. -/
def vMax (x1 : FVec Ideal S8x10x800 .f32) : FVec Ideal S8x800 .f32 :=
  multiReduction .maximumf [1] S8x800 x1 0xFF800000#32 reduces_S8x10x800_S8x800 (.inl rfl) rfl

/-- The exponentials of the scores shifted by their position's maximum. -/
def vExp (x1 : FVec Ideal S8x10x800 .f32) : FVec Ideal S8x10x800 .f32 :=
  exp (subf x1 (broadcastTo S8x10x800 (shapeCast S8x1x800 (vMax x1) shapeCasts_S8x800_S8x1x800) broadcasts_S8x1x800_S8x10x800))

/-- Each position's sum of those exponentials over the clusters. -/
def vSum (x1 : FVec Ideal S8x10x800 .f32) : FVec Ideal S8x800 .f32 :=
  multiReduction .add [1] S8x800 (vExp x1) 0x00000000#32 reduces_S8x10x800_S8x800 (.inl rfl) rfl

/-- The softmax weights, cluster by position. -/
def vAssign (x1 : FVec Ideal S8x10x800 .f32) : FVec Ideal S8x10x800 .f32 :=
  divf (vExp x1) (broadcastTo S8x10x800 (shapeCast S8x1x800 (vSum x1) shapeCasts_S8x800_S8x1x800) broadcasts_S8x1x800_S8x10x800)

/-- The features summed over the positions with each cluster's weights: the contraction. -/
def vWeighted (x0 : FVec Ideal S8x800x512 .f32) (x1 : FVec Ideal S8x10x800 .f32) : FVec Ideal S8x10x512 .f32 :=
  matmul dot_S8x10x800_S8x800x512_S8x10x512_2_1_1_2_0_0 none (vAssign x1) x0 (constant S8x10x512 .f32 0x00000000#32)

/-- Each cluster's total weight over the positions. -/
def vMass (x1 : FVec Ideal S8x10x800 .f32) : FVec Ideal S8x10 .f32 :=
  multiReduction .add [2] S8x10 (vAssign x1) 0x00000000#32 reduces_S8x10x800_S8x10 (.inl rfl) rfl

/-- All ten clusters' residuals. -/
def vResid (x0 : FVec Ideal S8x800x512 .f32) (x1 : FVec Ideal S8x10x800 .f32) (x2 : FVec Ideal S10x512 .f32) :
    FVec Ideal S8x10x512 .f32 :=
  subf (vWeighted x0 x1)
    (mulf (broadcastTo S8x10x512 (shapeCast S8x10x1 (vMass x1) shapeCasts_S8x10_S8x10x1) broadcasts_S8x10x1_S8x10x512)
      (broadcastTo S8x10x512 (shapeCast S1x10x512 x2 shapeCasts_S10x512_S1x10x512) broadcasts_S1x10x512_S8x10x512))

/-- The first eight clusters' residuals. -/
def vKept (x0 : FVec Ideal S8x800x512 .f32) (x1 : FVec Ideal S8x10x800 .f32) (x2 : FVec Ideal S10x512 .f32) :
    FVec Ideal S8x8x512 .f32 :=
  extractStridedSlice S8x8x512 ![0, 0, 0] (vResid x0 x1 x2) slices_S8x10x512_o0_0_0_S8x8x512

/-- Their rows' squared Euclidean norms. -/
def vEnergy (x0 : FVec Ideal S8x800x512 .f32) (x1 : FVec Ideal S8x10x800 .f32) (x2 : FVec Ideal S10x512 .f32) :
    FVec Ideal S8x8 .f32 :=
  multiReduction .add [2] S8x8 (mulf (vKept x0 x1 x2) (vKept x0 x1 x2)) 0x00000000#32 reduces_S8x8x512_S8x8 (.inl rfl) rfl

/-- The kept residuals divided by the square root of their row's clamped squared norm. -/
def vOut (x0 : FVec Ideal S8x800x512 .f32) (x1 : FVec Ideal S8x10x800 .f32) (x2 : FVec Ideal S10x512 .f32) :
    FVec Ideal S8x8x512 .f32 :=
  divf (vKept x0 x1 x2)
    (broadcastTo S8x8x512
      (sqrt (maximumf (shapeCast S8x8x1 (vEnergy x0 x1 x2) shapeCasts_S8x8_S8x8x1)
        (broadcast S8x8x1 (Scalar.ofBits (F := Ideal) .f32 0x2B8CBCCC#32))))
      broadcasts_S8x8x1_S8x8x512)

/-- The body's stored value is that composition: the chain's two leading shape casts are to the operand's own
    shape, hence the identity, and the rest unfolds to the definitions above. -/
theorem k0_pay1_eq (x0 : Vec Ideal S8x800x512 .f32) (x1 : Vec Ideal S8x10x800 .f32) (x2 : Vec Ideal S10x512 .f32) :
    k0_pay1 (F := Ideal) x0 x1 x2 = vOut x0 x1 x2 := by
  have e : k0_pay1 (F := Ideal) x0 x1 x2
      = vOut (shapeCast S8x800x512 x0 shapeCasts_S8x800x512_S8x800x512)
          (shapeCast S8x10x800 x1 shapeCasts_S8x10x800_S8x10x800) x2 := rfl
  rw [e, shapeCast_self, shapeCast_self]

/-! ## Each vector at an index, for batch element `b`

Throughout, batch element `b`'s features are `fun s d => x0 (b, s, d)`, its scores (positions × clusters, the block
holding them cluster-major) `fun s k => x1 (b, k, s)`, and the centres `fun k d => x2 (k, d)`. -/

section AtIndex
variable (x0 : FVec Ideal S8x800x512 .f32) (x1 : FVec Ideal S8x10x800 .f32) (x2 : FVec Ideal S10x512 .f32) (b : Fin 8)

theorem vMax_apply (s : Fin 800) :
    vMax x1 (ix2 b s) = Cert.Vlad.rowMax (fun s k' => x1 (ix3 b k' s)) s :=
  Reduce.max_clusters x1 b s

theorem vExp_apply (k' : Fin 10) (s : Fin 800) :
    vExp x1 (ix3 b k' s) = Cert.Vlad.expo (fun s k' => x1 (ix3 b k' s)) s k' :=
  congrArg (fun m => Ideal.exp (x1 (ix3 b k' s) - m))
    ((Cert.Keepdims3.broadcastTo_a1c_abc_apply _ _ b k' s).trans
      ((Cert.Keepdims3.shapeCast_ac_a1c_apply _ _ b 0 s).trans (vMax_apply x1 b s)))

theorem vSum_apply (s : Fin 800) :
    vSum x1 (ix2 b s) = ∑ k' : Fin 10, Cert.Vlad.expo (fun s k' => x1 (ix3 b k' s)) s k' :=
  (Reduce.sum_clusters (vExp x1) b s).trans (Finset.sum_congr rfl fun k' _ => vExp_apply x1 b k' s)

theorem vAssign_apply (k' : Fin 10) (s : Fin 800) :
    vAssign x1 (ix3 b k' s) = Cert.Vlad.assign (fun s k' => x1 (ix3 b k' s)) s k' :=
  congrArg₂ Ideal.div (vExp_apply x1 b k' s)
    ((Cert.Keepdims3.broadcastTo_a1c_abc_apply _ _ b k' s).trans
      ((Cert.Keepdims3.shapeCast_ac_a1c_apply _ _ b 0 s).trans (vSum_apply x1 b s)))

theorem vWeighted_apply (k' : Fin 10) (d : Fin 512) :
    vWeighted x0 x1 (ix3 b k' d)
      = Cert.Vlad.weighted (fun s d' => x0 (ix3 b s d')) (fun s k' => x1 (ix3 b k' s)) k' d :=
  (Reduce.matmul_at (vAssign x1) x0 b k' d).trans
    (Finset.sum_congr rfl fun s _ => congrArg (· * x0 (ix3 b s d)) (vAssign_apply x1 b k' s))

theorem vMass_apply (k' : Fin 10) :
    vMass x1 (ix2 b k') = Cert.Vlad.mass (fun s k' => x1 (ix3 b k' s)) k' :=
  (Reduce.sum_positions (vAssign x1) b k').trans (Finset.sum_congr rfl fun s _ => vAssign_apply x1 b k' s)

theorem vResid_apply (k' : Fin 10) (d : Fin 512) :
    vResid x0 x1 x2 (ix3 b k' d)
      = Cert.Vlad.resid (fun s d' => x0 (ix3 b s d')) (fun s k' => x1 (ix3 b k' s)) (fun k' d' => x2 (ix2 k' d')) k' d :=
  congrArg₂ (· - ·) (vWeighted_apply x0 x1 b k' d)
    (congrArg₂ (· * ·)
      ((Cert.Keepdims3.broadcastTo_ab1_abc_apply _ _ b k' d).trans
        ((Cert.Keepdims3.shapeCast_ab_ab1_apply _ _ b k' 0).trans (vMass_apply x1 b k')))
      ((Cert.Keepdims3.broadcastTo_1bc_abc_apply _ _ b k' d).trans (shapeCast_ab_1ab_apply _ _ 0 k' d)))

theorem vKept_apply (k : Fin 8) (d : Fin 512) :
    vKept x0 x1 x2 (ix3 b k d)
      = Cert.Vlad.resid (fun s d' => x0 (ix3 b s d')) (fun s k' => x1 (ix3 b k' s)) (fun k' d' => x2 (ix2 k' d'))
          (Cert.Vlad.keep k) d :=
  (Reduce.slice_at (vResid x0 x1 x2) b k d).trans (vResid_apply x0 x1 x2 b (Cert.Vlad.keep k) d)

theorem vEnergy_apply (k : Fin 8) :
    vEnergy x0 x1 x2 (ix2 b k)
      = Cert.Vlad.energy (fun s d' => x0 (ix3 b s d')) (fun s k' => x1 (ix3 b k' s)) (fun k' d' => x2 (ix2 k' d')) k :=
  (Reduce.sum_channels (mulf (vKept x0 x1 x2) (vKept x0 x1 x2)) b k).trans
    (Finset.sum_congr rfl fun d _ => congrArg₂ (· * ·) (vKept_apply x0 x1 x2 b k d) (vKept_apply x0 x1 x2 b k d))

theorem vOut_apply (k : Fin 8) (d : Fin 512) :
    vOut x0 x1 x2 (ix3 b k d)
      = Cert.Vlad.vladRow (fun s d' => x0 (ix3 b s d')) (fun s k' => x1 (ix3 b k' s)) (fun k' d' => x2 (ix2 k' d')) k d :=
  congrArg₂ Ideal.div (vKept_apply x0 x1 x2 b k d)
    ((Cert.Keepdims3.broadcastTo_ab1_abc_apply _ _ b k d).trans
      (congrArg (fun e => Ideal.sqrt (max e (Ideal.ofBits .f32 0x2B8CBCCC#32)))
        ((Cert.Keepdims3.shapeCast_ab_ab1_apply _ _ b k 0).trans (vEnergy_apply x0 x1 x2 b k))))

end AtIndex

/-- The body's stored value at batch element `b`, kept cluster `k`, channel `d` is the specification's normalised
    residual of that batch element's features, scores and the centres. -/
theorem pay_at (x0 : Vec Ideal S8x800x512 .f32) (x1 : Vec Ideal S8x10x800 .f32) (x2 : Vec Ideal S10x512 .f32)
    (b : Fin 8) (k : Fin 8) (d : Fin 512) :
    k0_pay1 (F := Ideal) x0 x1 x2 (ix3 b k d)
      = Cert.Vlad.vladRow (fun s d' => x0 (ix3 b s d')) (fun s k' => x1 (ix3 b k' s)) (fun k' d' => x2 (ix2 k' d')) k d :=
  (congrFun (k0_pay1_eq x0 x1 x2) (ix3 b k d)).trans (vOut_apply x0 x1 x2 b k d)

end Cert.KernelIdeal.Payload

end
-- ==== Proof.KernelArray.lean ====
/-
  The launch's output array, and the program's result, as one function of the argument arrays.

  What point `t` writes back is the body's stored value of that point's three input blocks. Read at batch row `b`
  of the block, cluster `k`, channel `d`, that value is the normalised residual of batch element `8t + b`: the
  feature block's row `b` is row `8t + b` of the flattened features, the score block's row `b` is row `8t + b` of
  the transposed flattened scores (read back in the untransposed order), and the centre block is the centre
  matrix. Since the four blocks tile the output, the output array is the specification's `G3` of the flattened
  arguments; the program's result is that array flattened once more.
-/
import proofs.«122732_j66194035966256_2_alg».proof.Proof.Gen.KernelIdeal.Frame
import proofs.«122732_j66194035966256_2_alg».proof.Proof.Spec
import proofs.«122732_j66194035966256_2_alg».proof.Proof.HostGlue
import proofs.«122732_j66194035966256_2_alg».proof.Proof.Blocks
import proofs.«122732_j66194035966256_2_alg».proof.Proof.KernelPayload
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg)

/-- The launch's output array: the specification of the flattened features, the flattened scores and the centres. -/
def out3 (c : Dev nD) : S32x8x512.Idx → EReal :=
  Cert.Vlad.G3
    (shapeCast S32x800x512 (m ((c : Thread nD τ).loc main_arg0)) shapeCasts_S32x16x50x512_S32x800x512)
    (shapeCast S32x800x10 (m ((c : Thread nD τ).loc main_arg1)) shapeCasts_S32x16x50x10_S32x800x10)
    (m ((c : Thread nD τ).loc main_arg2))

theorem hz3 : (![0, 0, 0] : Fin 3 → Nat) = fun _ => 0 := funext fun a => by fin_cases a <;> rfl
theorem hz2 : (![0, 0] : Fin 2 → Nat) = fun _ => 0 := funext fun a => by fin_cases a <;> rfl

/-- What point `t` writes back is block `t` of `out3`. -/
theorem flushed_eq (c : Dev nD) (t : Fin cfg0.N) :
    (dats m 0 c).flushed 3 t = ((cfg0.win 3).blk t).view.read (Elt Ideal) (out3 m c) := by
  show (cfg0.win 3).cut (grid0.coords t) ((dats m 0 c).after 3 t) = _
  rw [after0_3]
  unfold out0_3
  rw [View.canon_unit_zero hz3]
  simp only [View.ld_unit_zero (S := S8x800x512) hz3, View.ld_unit_zero (S := S8x10x800) hz3, View.ld_unit_zero (S := S10x512) hz2]
  funext y
  obtain ⟨b, k, d, rfl⟩ : ∃ (b : Fin 8) (k : Fin 8) (d : Fin 512), y = ix3 b k d := ⟨y 0, y 1, y 2, eq_ix3 y⟩
  have hN : cfg0.N = 4 := N_0
  have ht : t.val < 4 := by have := t.isLt; omega
  let B : Fin 32 := ⟨8 * t.val + b.val, by have := b.isLt; omega⟩
  have hB : B.val = 8 * t.val + b.val := rfl
  show k0_pay1 (F := Ideal) (iblk m c 0 t) (iblk m c 1 t) (iblk m c 2 t) (ix3 b k d)
    = out3 m c (((cfg0.win 3).blk t).view.emb (ix3 b k d))
  rw [Blocks.oblk_emb t b k d B hB]
  refine (Cert.KernelIdeal.Payload.pay_at (iblk m c 0 t) (iblk m c 1 t) (iblk m c 2 t) b k d).trans ?_
  unfold out3
  rw [Cert.Vlad.G3_ix3]
  have hf : (fun (s : Fin 800) (d' : Fin 512) => (iblk m c 0 t : Vec Ideal S8x800x512 .f32) (ix3 b s d'))
      = fun s d' => shapeCast S32x800x512 (m ((c : Thread nD τ).loc main_arg0)) shapeCasts_S32x16x50x512_S32x800x512 (ix3 B s d') :=
    funext fun s => funext fun d' => (Blocks.iblk0_apply m c t b s d' B hB).trans (congrFun (Glue.V_main_v0 m c) _)
  have hs : (fun (s : Fin 800) (k' : Fin 10) => (iblk m c 1 t : Vec Ideal S8x10x800 .f32) (ix3 b k' s))
      = fun s k' => shapeCast S32x800x10 (m ((c : Thread nD τ).loc main_arg1)) shapeCasts_S32x16x50x10_S32x800x10 (ix3 B s k') :=
    funext fun s => funext fun k' => ((Blocks.iblk1_apply m c t b k' s B hB).trans (congrFun (Glue.V_main_v2 m c) _)).trans
      (transpose_ix3_021_apply _ transposes_S32x800x10_S32x10x800_0_2_1 B k' s)
  have hc : (fun (k' : Fin 10) (d' : Fin 512) => (iblk m c 2 t : Vec Ideal S10x512 .f32) (ix2 k' d'))
      = fun k' d' => m ((c : Thread nD τ).loc main_arg2) (ix2 k' d') :=
    funext fun k' => funext fun d' => (Blocks.iblk2_apply m c t k' d').trans (congrFun (V_main_arg2 m c) _)
  rw [hf, hs, hc]

/-- The four blocks tile the output, so the output array after the launch is `out3`. -/
theorem final (c : Dev nD) : (dats m 0 c).arrAt 3 cfg0.N = out3 m c :=
  (dats m 0 c).arrAt_eq_of_cover 3 (out3 m c) (fun t _ => flushed_eq m c t) Blocks.covered

/-- The run, read: the result at `out3` flattened, the arguments unchanged. -/
theorem run : θ_run defs (onTc (τ := τ) (main (F := Ideal))) ⟨m, fun _ => 0, ρ⟩ fun r => ∀ c : Dev nD,
      r.2.mem ((c : Thread nD τ).loc main_v4) = shapeCast S32x4096 (out3 m c) shapeCasts_S32x8x512_S32x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v4 (Pipeline.mem_restRefs_of main_v4 (by decide) (by decide))).trans
          ((Glue.tail_main_v4 m c).trans (by rw [final])),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 2).trans (((dats m 0 c).arrAt_in 2 rfl _).trans ((A_eq m c 2).trans (V_main_arg2 m c)))⟩)
    (run_main m ρ)

end Cert.KernelIdeal.Value

end
-- ==== Proof.RefIsSpec.lean ====
/-
  The reference program's value is the specification.

  The reference works on all 32 batch elements at once with the scores laid out position-major, [32, 800, 10]:
  the row maximum over the ten clusters (a reduction from `-∞`, then one more maximum with `-∞`, which changes
  nothing), the shifted exponentials, their sum over the clusters and the quotient — the softmax weights —, the
  product with the features contracting the 800 positions, the weights' sum over the positions, the residual
  against the centres, the first eight clusters, the squared norm over the 512 channels clamped below, its square
  root and the final quotient. Read stage by stage at batch element `b`, each stage is the quantity of the same
  name in the specification applied to row `b` of the flattened scores and features; the sums that start from the
  word of `0` lose that starting value.
-/
import proofs.«122732_j66194035966256_2_alg».proof.Proof.Gen.ReferenceIdeal.Read
import proofs.«122732_j66194035966256_2_alg».proof.Proof.Spec
import Idealize.ShloMosaic.Lib.ValueIdx
import Idealize.ShloMosaic.Lib.Pipeline.Value
import Idealize.ShloMosaic.PureOps.Ideal.Laws
noncomputable section
namespace Cert.ReferenceIdeal.RefValue
open Idealize.ShloMosaic Idealize.ShloMosaic.ValueIdx Cert.ReferenceIdeal Cert.ReferenceIdeal.Read
open Cert.ReferenceIdeal.Gen

/-- the features' array type -/
abbrev X0 := (⟨S32x16x50x512, .f32⟩ : BufTy).Contents (Elt Ideal)
/-- the scores' array type -/
abbrev X1 := (⟨S32x16x50x10, .f32⟩ : BufTy).Contents (Elt Ideal)
/-- the centres' array type -/
abbrev X2 := (⟨S10x512, .f32⟩ : BufTy).Contents (Elt Ideal)

/-- batch element b's score matrix -/
abbrev scRow (x1 : X1) (b : Fin 32) : Fin 800 → Fin 10 → EReal := fun s k' => val_main_v1 (F := Ideal) x1 (ix3 b s k')
/-- batch element b's feature matrix -/
abbrev fRow (x0 : X0) (b : Fin 32) : Fin 800 → Fin 512 → EReal := fun s d' => val_main_v0 (F := Ideal) x0 (ix3 b s d')
/-- the centres as a matrix -/
abbrev cMat (x2 : X2) : Fin 10 → Fin 512 → EReal := fun k' d' => x2 (ix2 k' d')

/-! ## The row maximum -/

theorem reduces_d2 : S32x800x10.Reduces [2] S32x800 := by decide

/-- position (b, s) with cluster k put back is (b, s, k) -/
theorem lift_d2 (b : Fin 32) (s : Fin 800) (k : Fin (S32x800x10.size 2)) :
    reduces_d2.lift (ix2 b s) k = ix3 b s (⟨k.val, k.isLt⟩ : Fin 10) := by
  funext c; apply Fin.ext
  fin_cases c <;> rfl

/-- the reduce with a maximum body from -∞ is the fold of max over the ten clusters -/
theorem v2_at (x1 : X1) (b : Fin 32) (s : Fin 800) :
    val_main_v2 (F := Ideal) x1 (ix2 b s) = Cert.Vlad.rowMax (scRow x1 b) s := by
  unfold val_main_v2
  have e := Host.reduce_eq_fold_single (α := Ideal .f32) (s := S32x800x10) (t := S32x800) (a := 2) (u := S_)
    (FloatOps.maximumf (F := Ideal) (φ := .f32)) (val_main_v1 (F := Ideal) x1 : FVec Ideal S32x800x10 .f32)
    (val_main_cst (F := Ideal) : FVec Ideal S_ .f32) reducesTo_S32x800x10_S32x800_d2 reduces_d2 h_S_ (ix2 b s)
  refine e.trans ?_
  have hf : (val_main_v1 (F := Ideal) x1 ∘ reduces_d2.lift (ix2 b s)) = fun k : Fin 10 => val_main_v1 (F := Ideal) x1 (ix3 b s k) :=
    funext fun k => congrArg (val_main_v1 (F := Ideal) x1) (lift_d2 b s k)
  exact congrArg (fun f => Finset.fold max (Ideal.ofBits .f32 0xFF800000#32) f (Finset.univ : Finset (Fin 10))) hf

/-- the maximum with -∞ changes nothing -/
theorem v4_at (x1 : X1) (b : Fin 32) (s : Fin 800) :
    val_main_v4 (F := Ideal) x1 (ix2 b s) = Cert.Vlad.rowMax (scRow x1 b) s := by
  rw [val_main_v4_apply, val_main_v3_apply, val_main_cst_0_apply, v2_at]
  show max (Ideal.ofBits .f32 0xFF800000#32) _ = _
  simp [Ideal.ofBits, Ideal.ieee]

/-! ## The shifted exponentials and the softmax weights -/

theorem idx_v5_v6 (b : Fin 32) (s : Fin 800) (k : Fin 10) : idx_main_v5 (idx_main_v6 (ix3 b s k)) = ix2 b s :=
  funext fun a => Fin.ext (by match a with | ⟨0, _⟩ => rfl | ⟨1, _⟩ => rfl)

theorem v8_at (x1 : X1) (b : Fin 32) (s : Fin 800) (k : Fin 10) :
    val_main_v8 (F := Ideal) x1 (ix3 b s k) = Cert.Vlad.expo (scRow x1 b) s k := by
  rw [val_main_v8_apply, val_main_v7_apply, val_main_v6_apply, val_main_v5_apply, idx_v5_v6, v4_at]
  rfl

theorem idx_v9 (b : Fin 32) (s : Fin 800) (k : Fin 10) : idx_main_v9 (ix2 b s) k = ix3 b s k :=
  funext fun a => Fin.ext (by match a with | ⟨0, _⟩ => rfl | ⟨1, _⟩ => rfl | ⟨2, _⟩ => rfl)

/-- the sum from zero of a position's ten exponentials -/
theorem v9_at (x1 : X1) (b : Fin 32) (s : Fin 800) :
    val_main_v9 (F := Ideal) x1 (ix2 b s) = ∑ k' : Fin 10, Cert.Vlad.expo (scRow x1 b) s k' := by
  rw [val_main_v9_apply, val_main_cst_1_apply, Ideal.ofBits_def, Ideal.ofBits_zero_f32, zero_add]
  exact Finset.sum_congr rfl fun k _ => by rw [idx_v9, v8_at]

theorem idx_v10_v11 (b : Fin 32) (s : Fin 800) (k : Fin 10) : idx_main_v10 (idx_main_v11 (ix3 b s k)) = ix2 b s :=
  funext fun a => Fin.ext (by match a with | ⟨0, _⟩ => rfl | ⟨1, _⟩ => rfl)

theorem v12_at (x1 : X1) (b : Fin 32) (s : Fin 800) (k : Fin 10) :
    val_main_v12 (F := Ideal) x1 (ix3 b s k) = Cert.Vlad.assign (scRow x1 b) s k := by
  rw [val_main_v12_apply, val_main_v11_apply, val_main_v10_apply, idx_v10_v11, v9_at, v8_at]
  rfl

/-! ## The weighted feature sums and the clusters' masses -/

theorem lidx_v13 (b : Fin 32) (k : Fin 10) (d : Fin 512) (s : Fin 800) : lidx_main_v13 (ix3 b k d) s = ix3 b s k :=
  funext fun a => Fin.ext (by match a with | ⟨0, _⟩ => rfl | ⟨1, _⟩ => rfl | ⟨2, _⟩ => rfl)

theorem ridx_v13 (b : Fin 32) (k : Fin 10) (d : Fin 512) (s : Fin 800) : ridx_main_v13 (ix3 b k d) s = ix3 b s d :=
  funext fun a => Fin.ext (by match a with | ⟨0, _⟩ => rfl | ⟨1, _⟩ => rfl | ⟨2, _⟩ => rfl)

theorem v13_at (x0 : X0) (x1 : X1) (b : Fin 32) (k : Fin 10) (d : Fin 512) :
    val_main_v13 (F := Ideal) x0 x1 (ix3 b k d) = Cert.Vlad.weighted (fRow x0 b) (scRow x1 b) k d := by
  rw [val_main_v13_apply]
  exact Finset.sum_congr rfl fun s _ => by rw [lidx_v13, ridx_v13, v12_at]

theorem idx_v14 (b : Fin 32) (k : Fin 10) (s : Fin 800) : idx_main_v14 (ix2 b k) s = ix3 b s k :=
  funext fun a => Fin.ext (by match a with | ⟨0, _⟩ => rfl | ⟨1, _⟩ => rfl | ⟨2, _⟩ => rfl)

theorem v14_at (x1 : X1) (b : Fin 32) (k : Fin 10) :
    val_main_v14 (F := Ideal) x1 (ix2 b k) = Cert.Vlad.mass (scRow x1 b) k := by
  rw [val_main_v14_apply, val_main_cst_2_apply, Ideal.ofBits_def, Ideal.ofBits_zero_f32, zero_add]
  exact Finset.sum_congr rfl fun s _ => by rw [idx_v14, v12_at]

/-! ## The residuals -/

theorem idx_v15_v17 (b : Fin 32) (k : Fin 10) (d : Fin 512) : idx_main_v15 (idx_main_v17 (ix3 b k d)) = ix2 b k :=
  funext fun a => Fin.ext (by match a with | ⟨0, _⟩ => rfl | ⟨1, _⟩ => rfl)

theorem idx_v16_v18 (b : Fin 32) (k : Fin 10) (d : Fin 512) : idx_main_v16 (idx_main_v18 (ix3 b k d)) = ix2 k d :=
  funext fun a => Fin.ext (by match a with | ⟨0, _⟩ => rfl | ⟨1, _⟩ => rfl)

theorem v20_at (x0 : X0) (x1 : X1) (x2 : X2) (b : Fin 32) (k : Fin 10) (d : Fin 512) :
    val_main_v20 (F := Ideal) x0 x1 x2 (ix3 b k d) = Cert.Vlad.resid (fRow x0 b) (scRow x1 b) (cMat x2) k d := by
  rw [val_main_v20_apply, val_main_v19_apply, val_main_v17_apply, val_main_v15_apply, val_main_v18_apply, val_main_v16_apply,
    idx_v15_v17, idx_v16_v18, v13_at, v14_at]
  rfl

theorem idx_v21 (b : Fin 32) (k : Fin 8) (d : Fin 512) : idx_main_v21 (ix3 b k d) = ix3 b (Cert.Vlad.keep k) d :=
  funext fun a => Fin.ext (by match a with | ⟨0, _⟩ => rfl | ⟨1, _⟩ => rfl | ⟨2, _⟩ => rfl)

theorem v21_at (x0 : X0) (x1 : X1) (x2 : X2) (b : Fin 32) (k : Fin 8) (d : Fin 512) :
    val_main_v21 (F := Ideal) x0 x1 x2 (ix3 b k d)
      = Cert.Vlad.resid (fRow x0 b) (scRow x1 b) (cMat x2) (Cert.Vlad.keep k) d := by
  rw [val_main_v21_apply, idx_v21, v20_at]

/-! ## The squared norms and the normalised rows -/

theorem idx_v23 (b : Fin 32) (k : Fin 8) (d : Fin 512) : idx_main_v23 (ix2 b k) d = ix3 b k d :=
  funext fun a => Fin.ext (by match a with | ⟨0, _⟩ => rfl | ⟨1, _⟩ => rfl | ⟨2, _⟩ => rfl)

theorem v23_at (x0 : X0) (x1 : X1) (x2 : X2) (b : Fin 32) (k : Fin 8) :
    val_main_v23 (F := Ideal) x0 x1 x2 (ix2 b k) = Cert.Vlad.energy (fRow x0 b) (scRow x1 b) (cMat x2) k := by
  rw [val_main_v23_apply, val_main_cst_3_apply, Ideal.ofBits_def, Ideal.ofBits_zero_f32, zero_add]
  exact Finset.sum_congr rfl fun d _ => by rw [idx_v23, val_main_v22_apply, v21_at]; rfl

theorem idx_v24_v28 (b : Fin 32) (k : Fin 8) (d : Fin 512) : idx_main_v24 (idx_main_v28 (ix3 b k d)) = ix2 b k :=
  funext fun a => Fin.ext (by match a with | ⟨0, _⟩ => rfl | ⟨1, _⟩ => rfl)

/-- the value before the last reshape, at batch b, cluster k, channel d -/
theorem v29_at (x0 : (⟨S32x16x50x512, .f32⟩ : BufTy).Contents (Elt Ideal)) (x1 : (⟨S32x16x50x10, .f32⟩ : BufTy).Contents (Elt Ideal))
    (x2 : (⟨S10x512, .f32⟩ : BufTy).Contents (Elt Ideal)) (b : Fin 32) (k : Fin 8) (d : Fin 512) :
    val_main_v29 (F := Ideal) x0 x1 x2 (ix3 b k d)
      = Cert.Vlad.vladRow (fun s d' => val_main_v0 (F := Ideal) x0 (ix3 b s d')) (fun s k' => val_main_v1 (F := Ideal) x1 (ix3 b s k'))
          (fun k' d' => x2 (ix2 k' d')) k d := by
  rw [val_main_v29_apply, val_main_v28_apply, val_main_v27_apply, val_main_v26_apply, val_main_v24_apply, val_main_v25_apply,
    val_main_cst_4_apply, idx_v24_v28, v23_at, v21_at]
  rfl

/-- hence as whole arrays -/
theorem v29_eq (x0 : (⟨S32x16x50x512, .f32⟩ : BufTy).Contents (Elt Ideal)) (x1 : (⟨S32x16x50x10, .f32⟩ : BufTy).Contents (Elt Ideal))
    (x2 : (⟨S10x512, .f32⟩ : BufTy).Contents (Elt Ideal)) :
    val_main_v29 (F := Ideal) x0 x1 x2 = Cert.Vlad.G3 (val_main_v0 (F := Ideal) x0) (val_main_v1 (F := Ideal) x1) x2 := by
  funext j
  obtain ⟨b, k, d, rfl⟩ : ∃ (b : Fin 32) (k : Fin 8) (d : Fin 512), j = ix3 b k d := ⟨j 0, j 1, j 2, eq_ix3 j⟩
  exact (v29_at x0 x1 x2 b k d).trans (Cert.Vlad.G3_ix3 (val_main_v0 (F := Ideal) x0) (val_main_v1 (F := Ideal) x1) x2 b k d).symm

end Cert.ReferenceIdeal.RefValue
end
-- ==== Proof.lean ====
/-
  The proof of `Cert.Claim`: the kernel program and the reference compute the same normalised cluster residuals.

  Both programs flatten the two spatial axes of the features and of the scores, compute for every batch element
  the softmax weights of its 800 positions over the ten clusters, the weighted feature sums minus the total weights
  times the cluster centres, keep the first eight clusters, divide each residual row by its Euclidean norm (the
  squared norm clamped below by the same small constant), and flatten the result. The kernel does this for eight
  batch elements per grid point with the scores transposed; the reference does it for all 32 at once. On the
  extended reals the two are the same function of the arguments, `Cert.Vlad.G3` (Proof/Spec.lean), flattened:
  the kernel's side is Proof/KernelArray.lean (over Proof/KernelPayload.lean, Proof/Blocks.lean and
  Proof/HostGlue.lean), the reference's side Proof/RefIsSpec.lean. No algebraic law beyond reading the same sums in
  another layout is used, so the precondition is never opened. The frames are the generated ones; the idealisation
  rewrote nothing, so `preserves` is trivial.
-/
import proofs.«122732_j66194035966256_2_alg».proof.Defs
import proofs.«122732_j66194035966256_2_alg».proof.Proof.Gen.Kernel
import proofs.«122732_j66194035966256_2_alg».proof.Proof.Gen.Kernel.Frame
import proofs.«122732_j66194035966256_2_alg».proof.Proof.Gen.KernelIdeal
import proofs.«122732_j66194035966256_2_alg».proof.Proof.Gen.KernelIdeal.Frame
import proofs.«122732_j66194035966256_2_alg».proof.Proof.Gen.ReferenceIdeal
import proofs.«122732_j66194035966256_2_alg».proof.Proof.Gen.Pre_finite_inputs
import proofs.«122732_j66194035966256_2_alg».proof.Proof.Gen.ReferenceIdeal.Run
import proofs.«122732_j66194035966256_2_alg».proof.Proof.Gen.ReferenceIdeal.Read
import proofs.«122732_j66194035966256_2_alg».proof.Proof.KernelArray
import proofs.«122732_j66194035966256_2_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `G3` of the flattened arguments, flattened. -/
theorem algebraic : Cert.algebraic_KernelIdeal_ReferenceIdeal := by
  intro m ρ m' ρ' _ hagree
  refine ⟨fun c => shapeCast Cert.KernelIdeal.S32x4096 (Cert.KernelIdeal.Value.out3 m c)
    Cert.KernelIdeal.Facts₀.shapeCasts_S32x8x512_S32x4096, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq]
  unfold Cert.ReferenceIdeal.Read.val_main_v30
  rw [Cert.ReferenceIdeal.RefValue.v29_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
